-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel

variable [Facts]

def fn {F : FTy → Type} [FloatOps F] (main_arg0 : FVec F S16x4096x64 .f32) (main_arg1 : FVec F S16x4096x64 .f32) (main_arg2 : FVec F S16x4096x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  let main_v9 : FVec F S16x4096x64 .f32 := Host.absf main_arg2
  let main_cst_2 : FVec F S_ .f32 := constant S_ .f32 0x7F800000#32
  let main_v10 : FVec F S16x4096x64 .f32 := broadcastInDim S16x4096x64 ![] bcast_S_S16x4096x64 main_cst_2
  let main_v11 : IVec S16x4096x64 1 := cmpf .olt main_v9 main_v10
  let main_c_3 : IVec S_ 1 := constantI S_ 1 1#1
  let main_v12 : IVec S_ 1 := (fun x v => Host.reduce IntOp.andi x v reducesTo_S16x4096x64_S_d0_1_2 h_S_) main_v11 main_c_3
  let main_v13 : IVec S_ 1 := andi main_v8 main_v12
  main_v13
-- ==== Kernel.lean ====
abbrev S16x4096x64 : Shape := ⟨3, ![16, 4096, 64]⟩
abbrev S1x1024x64 : Shape := ⟨3, ![1, 1024, 64]⟩
abbrev S1x4096x64 : Shape := ⟨3, ![1, 4096, 64]⟩
abbrev S1024x1 : Shape := ⟨2, ![1024, 1]⟩
abbrev S1024x64 : Shape := ⟨2, ![1024, 64]⟩
abbrev S1024x1024 : Shape := ⟨2, ![1024, 1024]⟩
abbrev S1024 : Shape := ⟨1, ![1024]⟩

abbrev nBuf : Space → Nat
  | .hbm => 4
  | .vmem => 12
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096x64, .f32⟩
  | .local _ .vmem, ⟨0, _⟩ => ⟨S1x1024x64, .f32⟩
  | .local _ .vmem, ⟨1, _⟩ => ⟨S1x1024x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x1024x64, .f32⟩
  | .local _ .vmem, ⟨7, _⟩ => ⟨S1x1024x64, .f32⟩
  | .local _ .vmem, ⟨8, _⟩ => ⟨S1024x1, .f32⟩
  | .local _ .vmem, ⟨9, _⟩ => ⟨S1024x1, .f32⟩
  | .local _ .vmem, ⟨10, _⟩ => ⟨S1024x64, .f32⟩
  | .local _ .vmem, ⟨11, _⟩ => ⟨S1024x64, .bf16⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_mult1 (i : grid0.Coords) : BitVec 32 :=
  let arg2 : BitVec 32 := BitVec.ofNat 32 (i 2).val
  let c1024_i32 : BitVec 32 := 1024#32
  let v4 : BitVec 32 := Scalar.muli arg2 c1024_i32
  v4
def k0_off1 (i : grid0.Coords) : Fin 3 → Nat :=
  let c0_2 : Index := 0#32
  let arg2 : BitVec 32 := BitVec.ofNat 32 (i 2).val
  let c1024_i32 : BitVec 32 := 1024#32
  let v4 : BitVec 32 := Scalar.muli arg2 c1024_i32
  let v5 : BitVec 32 := v4
  let v6 : Index := Scalar.indexCast v5
  let c0_3 : Index := 0#32
  ![0, v6.toNat, 0]
def k0_cond2 (i : grid0.Coords) : BitVec 1 :=
  let arg2 : BitVec 32 := BitVec.ofNat 32 (i 2).val
  let c3_i32 : BitVec 32 := 3#32
  let v46 : BitVec 1 := Scalar.cmpi .eq arg2 c3_i32
  let v47 : BitVec 32 := Scalar.extui v46
  let c0_i32_22 : BitVec 32 := 0#32
  let v48 : BitVec 1 := Scalar.cmpi .ne v47 c0_i32_22
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  packedbf16_S1024x64_S1024x64_0_0 : (Rect.unit (s := S1024x64) ![0, 0] S1024x64.size inb_S1024x64_S1024x64_0_0).PackedRows (EltTy.packing .bf16)
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x64.size a ≤ S1x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x4096x64.size a
  hwx0_0 : ∀ i : grid0.Coords, EltTy.bits .f32 = 32 ∨ (Rect.block (s := S16x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .f32 = 32 ∨ (Rect.block (s := S16x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .f32 = 32 ∨ (Rect.block (s := S16x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x4096x64.size a
  hwx0_3 : ∀ i : grid0.Coords, EltTy.bits .f32 = 32 ∨ (Rect.block (s := S16x4096x64) S1x1024x64.size (cc0_transform_3 i) (hinb0_3 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x4096x64 : Shape := ⟨3, ![16, 4096, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096x4096, .f32⟩
  | .hbm, ⟨4, _⟩ => ⟨S_, .f32⟩
  | .hbm, ⟨5, _⟩ => ⟨S16x4096x4096, .f32⟩
  | .hbm, ⟨6, _⟩ => ⟨S16x4096x4096, .f32⟩
  | .hbm, ⟨7, _⟩ => ⟨S_, .f32⟩
  | .hbm, ⟨8, _⟩ => ⟨S16x4096, .f32⟩
  | .hbm, ⟨9, _⟩ => ⟨S_, .f32⟩
  | .hbm, ⟨10, _⟩ => ⟨S16x4096, .f32⟩
  | .hbm, ⟨11, _⟩ => ⟨S16x4096, .f32⟩
  | .hbm, ⟨12, _⟩ => ⟨S16x4096x1, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x4096x64, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.Pieces.lean ====
import proofs.«159403_j34815004902076_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What one grid point of the flash-attention body leaves in the four carried buffers — the running row maximum, the
  running normalizer, the running weighted sum of value rows, and the cached query tile — and in the output block, each as
  ONE pure function of what the point loads: the query tile (only at the first key tile of a row block), the current key
  and value tiles cut out of the batch-resident key and value blocks, and what the point before left.
-/
namespace Cert.KernelIdeal.Flash
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The key (or value) tile of the grid point: rows 1024·ki … 1024·ki + 1023 of the batch's whole block. -/
abbrev kvTile (i : grid0.Coords) (x : Vec F S1x4096x64 .f32) : Vec F S1x1024x64 .f32 :=
  View.ld x (Rect.unit (s := S1x4096x64) (k0_off1 i) S1x1024x64.size (k0_off1_inb i))

/-- The cached query tile: the query block with its unit batch axis dropped (and narrowed to bf16). -/
abbrev qCache (x0 : Vec F S1x1024x64 .f32) : Vec F S1024x64 .bf16 := k0_pay7 x0
/-- The running row maximum before the first key tile: minus infinity. -/
abbrev m0 : Vec F S1024x1 .f32 := k0_pay4
/-- The running normalizer before the first key tile: zero. -/
abbrev l0 : Vec F S1024x1 .f32 := k0_pay5
/-- The running weighted sum before the first key tile: zero. -/
abbrev acc0 : Vec F S1024x64 .f32 := k0_pay6

/-- The new running maximum: the old one against the row maxima of the tile's scaled scores. -/
abbrev stepM (qb : Vec F S1024x64 .bf16) (kt : Vec F S1x1024x64 .f32) (mp : Vec F S1024x1 .f32) : Vec F S1024x1 .f32 :=
  k0_pay2 (k0_pay10 qb kt mp)
/-- The new normalizer: the old one rescaled by exp (old max − new max), plus the tile's row sums of exp (score − new max). -/
abbrev stepL (qb : Vec F S1024x64 .bf16) (kt : Vec F S1x1024x64 .f32) (mp lp : Vec F S1024x1 .f32) : Vec F S1024x1 .f32 :=
  k0_pay13 qb kt mp lp
/-- The new weighted sum: the old one rescaled the same way, plus exp (score − new max) times the value tile. -/
abbrev stepAcc (qb : Vec F S1024x64 .bf16) (kt vt : Vec F S1x1024x64 .f32) (mp : Vec F S1024x1 .f32) (ap : Vec F S1024x64 .f32) :
    Vec F S1024x64 .f32 :=
  k0_pay1 (k0_pay8 vt) (k0_pay11 qb kt mp) (k0_pay12 qb kt mp) ap
/-- The output block: the weighted sum divided by the normalizer, row by row. -/
abbrev outBlock (a : Vec F S1024x64 .f32) (l : Vec F S1024x1 .f32) : Vec F S1x1024x64 .f32 := k0_pay3 a l

/-- A middle key tile leaves the new running maximum. -/
theorem sout_B_0 (c : Dev nD) (i : grid0.Coords) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .bf16) (harg10 : arg10.IsWhole) (hc0 : ¬cond0_0 i) (hc1 : ¬cond0_1 i)
    (x0 : Vec F S1x1024x64 .f32) (x1 : Vec F S1x4096x64 .f32) (x2 : Vec F S1x4096x64 .f32) (xs0 : Vec F S1024x1 .f32) (xs1 : Vec F S1024x1 .f32) (xs2 : Vec F S1024x64 .f32) (xs3 : Vec F S1024x64 .bf16) :
    sout0_B_0 c i arg3 harg3 arg4 harg4 arg5 harg5 arg6 harg6 arg7 harg7 arg8 harg8 arg9 harg9 arg10 harg10 hc0 hc1 x0 x1 x2 xs0 xs1 xs2 xs3 = stepM xs3 (kvTile i x1) xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 xs0 xs1 xs2 xs3)]
  unfold kernelRun0_B
  dsimp only
  try sl_unfold_words
  rw [View.canon_unit_zero hz2]
  simp only [View.readAt_eq_ld, harg10.read_unread, harg4.read_unread, harg7.read_unread, View.ld_unit_zero (S := S1024x1) hz2, View.ld_unit_zero (S := S1024x64) hz2]
  rfl

/-- … the new normalizer. -/
theorem sout_B_1 (c : Dev nD) (i : grid0.Coords) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .bf16) (harg10 : arg10.IsWhole) (hc0 : ¬cond0_0 i) (hc1 : ¬cond0_1 i)
    (x0 : Vec F S1x1024x64 .f32) (x1 : Vec F S1x4096x64 .f32) (x2 : Vec F S1x4096x64 .f32) (xs0 : Vec F S1024x1 .f32) (xs1 : Vec F S1024x1 .f32) (xs2 : Vec F S1024x64 .f32) (xs3 : Vec F S1024x64 .bf16) :
    sout0_B_1 c i arg3 harg3 arg4 harg4 arg5 harg5 arg6 harg6 arg7 harg7 arg8 harg8 arg9 harg9 arg10 harg10 hc0 hc1 x0 x1 x2 xs0 xs1 xs2 xs3 = stepL xs3 (kvTile i x1) xs0 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 xs0 xs1 xs2 xs3)]
  unfold kernelRun0_B
  dsimp only
  try sl_unfold_words
  rw [View.canon_unit_zero hz2]
  simp only [View.readAt_eq_ld, harg10.read_unread, harg4.read_unread, harg7.read_unread, harg8.read_unread, View.ld_unit_zero (S := S1024x1) hz2, View.ld_unit_zero (S := S1024x64) hz2]
  rfl

/-- … and the new weighted sum. -/
theorem sout_B_2 (c : Dev nD) (i : grid0.Coords) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .bf16) (harg10 : arg10.IsWhole) (hc0 : ¬cond0_0 i) (hc1 : ¬cond0_1 i)
    (x0 : Vec F S1x1024x64 .f32) (x1 : Vec F S1x4096x64 .f32) (x2 : Vec F S1x4096x64 .f32) (xs0 : Vec F S1024x1 .f32) (xs1 : Vec F S1024x1 .f32) (xs2 : Vec F S1024x64 .f32) (xs3 : Vec F S1024x64 .bf16) :
    sout0_B_2 c i arg3 harg3 arg4 harg4 arg5 harg5 arg6 harg6 arg7 harg7 arg8 harg8 arg9 harg9 arg10 harg10 hc0 hc1 x0 x1 x2 xs0 xs1 xs2 xs3 = stepAcc xs3 (kvTile i x1) (kvTile i x2) xs0 xs2 := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 xs0 xs1 xs2 xs3)]
  unfold kernelRun0_B
  dsimp only
  try sl_unfold_words
  rw [View.canon_unit_zero hz2]
  simp only [View.readAt_eq_ld, harg10.read_unread, harg4.read_unread, harg5.read_unread, harg7.read_unread, harg9.read_unread, View.ld_unit_zero (S := S1024x1) hz2, View.ld_unit_zero (S := S1024x64) hz2]
  rfl

/-- A last key tile leaves the new running maximum. -/
theorem sout_C_0 (c : Dev nD) (i : grid0.Coords) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .bf16) (harg10 : arg10.IsWhole) (hc0 : ¬cond0_0 i) (hc1 : cond0_1 i)
    (x0 : Vec F S1x1024x64 .f32) (x1 : Vec F S1x4096x64 .f32) (x2 : Vec F S1x4096x64 .f32) (xs0 : Vec F S1024x1 .f32) (xs1 : Vec F S1024x1 .f32) (xs2 : Vec F S1024x64 .f32) (xs3 : Vec F S1024x64 .bf16) :
    sout0_C_0 c i arg3 harg3 arg4 harg4 arg5 harg5 arg6 harg6 arg7 harg7 arg8 harg8 arg9 harg9 arg10 harg10 hc0 hc1 x0 x1 x2 xs0 xs1 xs2 xs3 = stepM xs3 (kvTile i x1) xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 xs0 xs1 xs2 xs3)]
  unfold kernelRun0_C
  dsimp only
  try sl_unfold_words
  rw [View.canon_unit_zero hz2]
  simp only [View.readAt_eq_ld, harg10.read_unread, harg4.read_unread, harg7.read_unread, View.ld_unit_zero (S := S1024x1) hz2, View.ld_unit_zero (S := S1024x64) hz2]
  rfl

/-- … the new normalizer. -/
theorem sout_C_1 (c : Dev nD) (i : grid0.Coords) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .bf16) (harg10 : arg10.IsWhole) (hc0 : ¬cond0_0 i) (hc1 : cond0_1 i)
    (x0 : Vec F S1x1024x64 .f32) (x1 : Vec F S1x4096x64 .f32) (x2 : Vec F S1x4096x64 .f32) (xs0 : Vec F S1024x1 .f32) (xs1 : Vec F S1024x1 .f32) (xs2 : Vec F S1024x64 .f32) (xs3 : Vec F S1024x64 .bf16) :
    sout0_C_1 c i arg3 harg3 arg4 harg4 arg5 harg5 arg6 harg6 arg7 harg7 arg8 harg8 arg9 harg9 arg10 harg10 hc0 hc1 x0 x1 x2 xs0 xs1 xs2 xs3 = stepL xs3 (kvTile i x1) xs0 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 xs0 xs1 xs2 xs3)]
  unfold kernelRun0_C
  dsimp only
  try sl_unfold_words
  rw [View.canon_unit_zero hz2]
  simp only [View.readAt_eq_ld, harg10.read_unread, harg4.read_unread, harg7.read_unread, harg8.read_unread, View.ld_unit_zero (S := S1024x1) hz2, View.ld_unit_zero (S := S1024x64) hz2]
  rfl

/-- … and the new weighted sum. -/
theorem sout_C_2 (c : Dev nD) (i : grid0.Coords) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .bf16) (harg10 : arg10.IsWhole) (hc0 : ¬cond0_0 i) (hc1 : cond0_1 i)
    (x0 : Vec F S1x1024x64 .f32) (x1 : Vec F S1x4096x64 .f32) (x2 : Vec F S1x4096x64 .f32) (xs0 : Vec F S1024x1 .f32) (xs1 : Vec F S1024x1 .f32) (xs2 : Vec F S1024x64 .f32) (xs3 : Vec F S1024x64 .bf16) :
    sout0_C_2 c i arg3 harg3 arg4 harg4 arg5 harg5 arg6 harg6 arg7 harg7 arg8 harg8 arg9 harg9 arg10 harg10 hc0 hc1 x0 x1 x2 xs0 xs1 xs2 xs3 = stepAcc xs3 (kvTile i x1) (kvTile i x2) xs0 xs2 := by
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 xs0 xs1 xs2 xs3)]
  unfold kernelRun0_C
  dsimp only
  try sl_unfold_words
  rw [View.canon_unit_zero hz2]
  simp only [View.readAt_eq_ld, harg10.read_unread, harg4.read_unread, harg5.read_unread, harg7.read_unread, harg9.read_unread, View.ld_unit_zero (S := S1024x1) hz2, View.ld_unit_zero (S := S1024x64) hz2]
  rfl

/-- The first key tile of a row block caches the query tile … -/
theorem sout_A_3 (c : Dev nD) (i : grid0.Coords) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .bf16) (harg10 : arg10.IsWhole) (hc0 : cond0_0 i) (hc1 : ¬cond0_1 i)
    (x0 : Vec F S1x1024x64 .f32) (x1 : Vec F S1x4096x64 .f32) (x2 : Vec F S1x4096x64 .f32) :
    sout0_A_3 c i arg3 harg3 arg4 harg4 arg5 harg5 arg6 harg6 arg7 harg7 arg8 harg8 arg9 harg9 arg10 harg10 hc0 hc1 x0 x1 x2 = qCache x0 := by
  unfold sout0_A_3
  rw [View.read_writes_eq_canon _ _ _ (scover0_A_3 c i arg3 harg3 arg4 harg4 arg5 harg5 arg6 harg6 arg7 harg7 arg8 harg8 arg9 harg9 arg10 harg10 hc0 hc1 x0 x1 x2)]
  unfold kernelRun0_A
  dsimp only
  try sl_unfold_words
  rw [View.canon_unit_zero hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]

/-- … and leaves the running maximum of the tile alone (from minus infinity), -/
theorem sout_A_0 (c : Dev nD) (i : grid0.Coords) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .bf16) (harg10 : arg10.IsWhole) (hc0 : cond0_0 i) (hc1 : ¬cond0_1 i)
    (x0 : Vec F S1x1024x64 .f32) (x1 : Vec F S1x4096x64 .f32) (x2 : Vec F S1x4096x64 .f32) :
    sout0_A_0 c i arg3 harg3 arg4 harg4 arg5 harg5 arg6 harg6 arg7 harg7 arg8 harg8 arg9 harg9 arg10 harg10 hc0 hc1 x0 x1 x2 = stepM (qCache x0) (kvTile i x1) m0 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2)]
  unfold kernelRun0_A
  dsimp only
  try sl_unfold_words
  rw [View.canon_cons_unit_zero (S := S1024x1) hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

/-- the normalizer of the tile alone (from zero), -/
theorem sout_A_1 (c : Dev nD) (i : grid0.Coords) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .bf16) (harg10 : arg10.IsWhole) (hc0 : cond0_0 i) (hc1 : ¬cond0_1 i)
    (x0 : Vec F S1x1024x64 .f32) (x1 : Vec F S1x4096x64 .f32) (x2 : Vec F S1x4096x64 .f32) :
    sout0_A_1 c i arg3 harg3 arg4 harg4 arg5 harg5 arg6 harg6 arg7 harg7 arg8 harg8 arg9 harg9 arg10 harg10 hc0 hc1 x0 x1 x2 = stepL (qCache x0) (kvTile i x1) m0 l0 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2)]
  unfold kernelRun0_A
  dsimp only
  try sl_unfold_words
  rw [View.canon_cons_unit_zero (S := S1024x1) hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

/-- and the weighted sum of the tile alone (from zero). -/
theorem sout_A_2 (c : Dev nD) (i : grid0.Coords) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .bf16) (harg10 : arg10.IsWhole) (hc0 : cond0_0 i) (hc1 : ¬cond0_1 i)
    (x0 : Vec F S1x1024x64 .f32) (x1 : Vec F S1x4096x64 .f32) (x2 : Vec F S1x4096x64 .f32) :
    sout0_A_2 c i arg3 harg3 arg4 harg4 arg5 harg5 arg6 harg6 arg7 harg7 arg8 harg8 arg9 harg9 arg10 harg10 hc0 hc1 x0 x1 x2 = stepAcc (qCache x0) (kvTile i x1) (kvTile i x2) m0 acc0 := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2)]
  unfold kernelRun0_A
  dsimp only
  try sl_unfold_words
  rw [View.canon_cons_unit_zero (S := S1024x64) hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

/-- The last key tile stores the output block: the new weighted sum over the new normalizer. -/
theorem out_C_3 (c : Dev nD) (i : grid0.Coords) (arg3 : Memref sig .tc .vmem S1x1024x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .bf16) (harg10 : arg10.IsWhole) (hc0 : ¬cond0_0 i) (hc1 : cond0_1 i)
    (x0 : Vec F S1x1024x64 .f32) (x1 : Vec F S1x4096x64 .f32) (x2 : Vec F S1x4096x64 .f32) (xs0 : Vec F S1024x1 .f32) (xs1 : Vec F S1024x1 .f32) (xs2 : Vec F S1024x64 .f32) (xs3 : Vec F S1024x64 .bf16) :
    out0_C_3 c i arg3 harg3 arg4 harg4 arg5 harg5 arg6 harg6 arg7 harg7 arg8 harg8 arg9 harg9 arg10 harg10 hc0 hc1 x0 x1 x2 xs0 xs1 xs2 xs3
      = outBlock (stepAcc xs3 (kvTile i x1) (kvTile i x2) xs0 xs2) (stepL xs3 (kvTile i x1) xs0 xs1) := by
  unfold out0_C_3
  rw [View.read_writes_eq_canon _ _ _ (cover0_C_3 c i arg3 harg3 arg4 harg4 arg5 harg5 arg6 harg6 arg7 harg7 arg8 harg8 arg9 harg9 arg10 harg10 hc0 hc1 x0 x1 x2 xs0 xs1 xs2 xs3)]
  unfold kernelRun0_C
  dsimp only
  try sl_unfold_words
  rw [View.canon_unit_zero hz3]
  simp only [View.readAt_eq_ld, harg3.read_unread, harg4.read_unread, harg5.read_unread, harg7.read_unread, harg8.read_unread, harg9.read_unread, harg10.read_unread, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
  rfl

end Cert.KernelIdeal.Flash
end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«159403_j34815004902076_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibTransposedRhsMatmul.lean ====
/-
  A matrix product whose right operand is contracted on its LAST axis, read at an index at the ideal values.

  For an M × K left operand and an N × K right operand (the right one is the transpose of the matrix a textbook
  product would take), the product into the zero accumulator has, at (i, j), the entry
      ∑_k  lhs (i, k) · rhs (j, k) :
  row i of the left operand against ROW j of the right one. The dimension numbers are the library's
  DotDims.transposedRhs M K N (contract axis 1 of both operands; rows of the left operand, then rows of the right one,
  index the result); a printed record with those six lists equals it by rfl.

  At a result index (i, j) and a contraction position k the left operand is read at (i, k) and the right one at
  (j, k): the free axis of each operand takes its coordinate from the result index, the contracted axis takes the one
  coordinate of the contraction position. The sum over contraction positions is then a sum over k : Fin K.

  Stated for any M, K, N and any operand formats; a change of float format is the identity at the ideal values, so
  operands rounded to a shorter format before the product read the same.
-/
import Idealize.ShloMosaic.PureOps.Ideal.Laws
import Idealize.ShloMosaic.Lib.ValueIdx

noncomputable section

open scoped BigOperators

namespace Idealize.ShloMosaic.TransposedRhsMatmul

open Idealize.ShloMosaic Idealize.ShloMosaic.ValueIdx

variable {M K N : Nat}

/-- The left operand's row coordinate is the result's row coordinate. -/
theorem lhsIdx_free (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction position. -/
theorem lhsIdx_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column coordinate. -/
theorem rhsIdx_free (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction position too. -/
theorem rhsIdx_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The product into the zero accumulator at (i, j): row i of the left operand against row j of the right one. -/
theorem transposedRhsMatmul_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhsIdx_free _ _
      | ⟨1, _⟩ => exact (lhsIdx_contr _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhsIdx_free _ _
      | ⟨1, _⟩ => exact (rhsIdx_contr _ _).trans hk)
  rw [el, er]

end Idealize.ShloMosaic.TransposedRhsMatmul

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibOnlineSoftmax.lean ====
/-
  The online softmax of one attention row, on the extended reals.

  A row of scores is met tile by tile. Before tile k the row carries a running maximum m_k, a running normalizer l_k and,
  for one output column, a running weighted sum a_k of that column's values; tile k replaces them by

      m_{k+1} = max m_k (max of the tile's scores),
      l_{k+1} = exp (m_k − m_{k+1}) · l_k + ∑_c exp (s_{k,c} − m_{k+1}),
      a_{k+1} = exp (m_k − m_{k+1}) · a_k + ∑_c exp (s_{k,c} − m_{k+1}) · v_{k,c},

  starting from m_0 = −∞, l_0 = a_0 = 0. When every score and value is a real number, then after n ≥ 1 tiles m_n is a
  real number and

      l_n = (∑_{k<n} ∑_c exp s_{k,c}) / exp m_n ,      a_n = (∑_{k<n} ∑_c exp s_{k,c} · v_{k,c}) / exp m_n :

  by induction, since exp (m − m') · (L / exp m) = L / exp m' and exp (s − m') = exp s / exp m'; the first tile is the same
  computation with exp (−∞ − m') · 0 = 0. So a_n / l_n is the softmax-weighted mean ∑ exp s · v / ∑ exp s, whatever the
  maxima were. The textbook form — subtract the row's maximum M, exponentiate, divide by the sum, then weight the values —
  is the same mean for the same reason (exp (s − M) = exp s / exp M cancels in the quotient). A sum over 4·1024 columns is
  the double sum over 4 tiles of 1024 columns.
-/
import Idealize.ShloMosaic.PureOps.Ideal
import Idealize.ShloMosaic.PureOps.Ideal.Laws

noncomputable section

open scoped BigOperators

namespace Cert.OnlineSoftmax

open Idealize.ShloMosaic

variable {W : Nat}

/-- The greatest score of a tile, folded from the starting value. -/
def tileMax (ninf : EReal) (σ : Fin W → EReal) : EReal := (Finset.univ : Finset (Fin W)).fold max ninf σ

/-- The running maximum before tile k. -/
def mSt (ninf : EReal) (σ : ℕ → Fin W → EReal) : ℕ → EReal
  | 0 => ninf
  | k + 1 => max (mSt ninf σ k) (tileMax ninf (σ k))

/-- The running normalizer before tile k. -/
def lSt (ninf z : EReal) (σ : ℕ → Fin W → EReal) : ℕ → EReal
  | 0 => z
  | k + 1 => Ideal.exp (mSt ninf σ k - mSt ninf σ (k + 1)) * lSt ninf z σ k
      + ∑ c : Fin W, Ideal.exp (σ k c - mSt ninf σ (k + 1))

/-- The running weighted sum of one output column before tile k. -/
def aSt (ninf z : EReal) (σ ν : ℕ → Fin W → EReal) : ℕ → EReal
  | 0 => z
  | k + 1 => Ideal.exp (mSt ninf σ k - mSt ninf σ (k + 1)) * aSt ninf z σ ν k
      + ∑ c : Fin W, Ideal.exp (σ k c - mSt ninf σ (k + 1)) * ν k c

/-- A finite sum of real numbers, taken on the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The greatest of finitely many reals, folded from −∞ over a nonempty index type, is a real number. -/
theorem fold_max_real {ι : Type*} [Fintype ι] [Nonempty ι] (f : ι → ℝ) :
    ∃ r : ℝ, (Finset.univ : Finset ι).fold max (⊥ : EReal) (fun k => (f k : EReal)) = r := by
  have hlt : (Finset.univ : Finset ι).fold max (⊥ : EReal) (fun k => (f k : EReal)) < ⊤ := by
    rw [Finset.fold_max_lt]
    exact ⟨bot_lt_top, fun k _ => EReal.coe_lt_top _⟩
  have hgt : (⊥ : EReal) < (Finset.univ : Finset ι).fold max (⊥ : EReal) (fun k => (f k : EReal)) := by
    rw [Finset.lt_fold_max]
    obtain ⟨k⟩ := ‹Nonempty ι›
    exact Or.inr ⟨k, Finset.mem_univ k, EReal.bot_lt_coe _⟩
  exact ⟨_, (EReal.coe_toReal hlt.ne hgt.ne').symm⟩

/-- One tile, for real scores and values: from a row state that is either the start (−∞, 0, 0) or real with
    l = L / exp m and a = A / exp m, the next state is real with the tile's terms added to L and A. -/
theorem step_real [NeZero W] (σr νr : Fin W → ℝ) (m l a : EReal) (L A : ℝ)
    (h : (m = ⊥ ∧ l = 0 ∧ a = 0 ∧ L = 0 ∧ A = 0)
      ∨ ∃ mr : ℝ, m = mr ∧ l = ((L / Real.exp mr : ℝ) : EReal) ∧ a = ((A / Real.exp mr : ℝ) : EReal)) :
    ∃ mr' : ℝ, max m (tileMax ⊥ (fun c => (σr c : EReal))) = mr'
      ∧ Ideal.exp (m - mr') * l + ∑ c : Fin W, Ideal.exp ((σr c : EReal) - mr')
          = (((L + ∑ c : Fin W, Real.exp (σr c)) / Real.exp mr' : ℝ) : EReal)
      ∧ Ideal.exp (m - mr') * a + ∑ c : Fin W, Ideal.exp ((σr c : EReal) - mr') * (νr c : EReal)
          = (((A + ∑ c : Fin W, Real.exp (σr c) * νr c) / Real.exp mr' : ℝ) : EReal) := by
  haveI : Nonempty (Fin W) := ⟨⟨0, Nat.pos_of_ne_zero (NeZero.ne W)⟩⟩
  obtain ⟨tm, htm⟩ := fold_max_real σr
  have hsum1 : ∀ mr' : ℝ, ∑ c : Fin W, Ideal.exp ((σr c : EReal) - mr')
      = ((∑ c : Fin W, Real.exp (σr c) / Real.exp mr' : ℝ) : EReal) := fun mr' => by
    rw [← coe_sum]
    refine Finset.sum_congr rfl fun c _ => ?_
    rw [← EReal.coe_sub, Ideal.exp_coe, Real.exp_sub]
  have hsum2 : ∀ mr' : ℝ, ∑ c : Fin W, Ideal.exp ((σr c : EReal) - mr') * (νr c : EReal)
      = ((∑ c : Fin W, Real.exp (σr c) * νr c / Real.exp mr' : ℝ) : EReal) := fun mr' => by
    rw [← coe_sum]
    refine Finset.sum_congr rfl fun c _ => ?_
    rw [← EReal.coe_sub, Ideal.exp_coe, Real.exp_sub, ← EReal.coe_mul]
    congr 1; ring
  rcases h with ⟨rfl, rfl, rfl, rfl, rfl⟩ | ⟨mr, rfl, rfl, rfl⟩
  · refine ⟨tm, ?_, ?_, ?_⟩
    · unfold tileMax; rw [htm]; exact max_eq_right bot_le
    · rw [hsum1, EReal.bot_sub, Ideal.exp_bot, zero_mul, zero_add, zero_add, Finset.sum_div]
    · rw [hsum2, EReal.bot_sub, Ideal.exp_bot, zero_mul, zero_add, zero_add, Finset.sum_div]
  · refine ⟨max mr tm, ?_, ?_, ?_⟩
    · unfold tileMax; rw [htm]; exact (EReal.coe_strictMono.monotone.map_max (a := mr) (b := tm)).symm
    · rw [hsum1, ← EReal.coe_sub, Ideal.exp_coe, ← EReal.coe_mul, ← EReal.coe_add, Real.exp_sub, add_div,
        Finset.sum_div]
      congr 2
      field_simp
    · rw [hsum2, ← EReal.coe_sub, Ideal.exp_coe, ← EReal.coe_mul, ← EReal.coe_add, Real.exp_sub, add_div,
        Finset.sum_div]
      congr 2
      field_simp

/-- After n ≥ 1 tiles of real scores and values the running maximum is real, and the normalizer and the weighted sum are
    the plain sums of exponentials divided by its exponential. -/
theorem state_real [NeZero W] (σr νr : ℕ → Fin W → ℝ) (n : ℕ) :
    ∃ mr : ℝ, mSt ⊥ (fun k c => (σr k c : EReal)) (n + 1) = mr
      ∧ lSt ⊥ 0 (fun k c => (σr k c : EReal)) (n + 1)
          = (((∑ k ∈ Finset.range (n + 1), ∑ c : Fin W, Real.exp (σr k c)) / Real.exp mr : ℝ) : EReal)
      ∧ aSt ⊥ 0 (fun k c => (σr k c : EReal)) (fun k c => (νr k c : EReal)) (n + 1)
          = (((∑ k ∈ Finset.range (n + 1), ∑ c : Fin W, Real.exp (σr k c) * νr k c) / Real.exp mr : ℝ) : EReal) := by
  induction n with
  | zero =>
    obtain ⟨mr', h1, h2, h3⟩ := step_real (σr 0) (νr 0) ⊥ 0 0 0 0 (Or.inl ⟨rfl, rfl, rfl, rfl, rfl⟩)
    refine ⟨mr', h1, ?_, ?_⟩
    · show Ideal.exp (⊥ - max ⊥ (tileMax ⊥ fun c => (σr 0 c : EReal))) * 0 + ∑ c : Fin W, Ideal.exp ((σr 0 c : EReal) - max ⊥ (tileMax ⊥ fun c => (σr 0 c : EReal))) = _
      rw [h1, h2, Finset.sum_range_one, zero_add]
    · show Ideal.exp (⊥ - max ⊥ (tileMax ⊥ fun c => (σr 0 c : EReal))) * 0 + ∑ c : Fin W, Ideal.exp ((σr 0 c : EReal) - max ⊥ (tileMax ⊥ fun c => (σr 0 c : EReal))) * (νr 0 c : EReal) = _
      rw [h1, h3, Finset.sum_range_one, zero_add]
  | succ n ih =>
    obtain ⟨mr, hm, hl, ha⟩ := ih
    obtain ⟨mr', h1, h2, h3⟩ := step_real (σr (n + 1)) (νr (n + 1)) _ _ _ _ _ (Or.inr ⟨mr, hm, hl, ha⟩)
    refine ⟨mr', h1, ?_, ?_⟩
    · show Ideal.exp (mSt ⊥ _ (n + 1) - max (mSt ⊥ _ (n + 1)) (tileMax ⊥ fun c => (σr (n + 1) c : EReal))) * lSt ⊥ 0 _ (n + 1) + ∑ c : Fin W, Ideal.exp ((σr (n + 1) c : EReal) - max (mSt ⊥ _ (n + 1)) (tileMax ⊥ fun c => (σr (n + 1) c : EReal))) = _
      rw [h1, h2, Finset.sum_range_succ _ (n + 1)]
    · show Ideal.exp (mSt ⊥ _ (n + 1) - max (mSt ⊥ _ (n + 1)) (tileMax ⊥ fun c => (σr (n + 1) c : EReal))) * aSt ⊥ 0 _ _ (n + 1) + ∑ c : Fin W, Ideal.exp ((σr (n + 1) c : EReal) - max (mSt ⊥ _ (n + 1)) (tileMax ⊥ fun c => (σr (n + 1) c : EReal))) * (νr (n + 1) c : EReal) = _
      rw [h1, h3, Finset.sum_range_succ _ (n + 1)]

/-- The ideal quotient of a real by a nonzero real is the real quotient. -/
theorem div_coe_coe (p q : ℝ) (hq : q ≠ 0) : Ideal.div (p : EReal) (q : EReal) = ((p / q : ℝ) : EReal) := by
  rw [Ideal.div_coe hq, ← EReal.coe_mul, mul_one_div]

/-- The online result: after n ≥ 1 tiles of real scores and values, weighted sum over normalizer is the softmax-weighted mean. -/
theorem online_quotient [NeZero W] (σr νr : ℕ → Fin W → ℝ) (n : ℕ) :
    Ideal.div (aSt ⊥ 0 (fun k c => (σr k c : EReal)) (fun k c => (νr k c : EReal)) (n + 1))
        (lSt ⊥ 0 (fun k c => (σr k c : EReal)) (n + 1))
      = (((∑ k ∈ Finset.range (n + 1), ∑ c : Fin W, Real.exp (σr k c) * νr k c)
          / (∑ k ∈ Finset.range (n + 1), ∑ c : Fin W, Real.exp (σr k c)) : ℝ) : EReal) := by
  obtain ⟨mr, -, hl, ha⟩ := state_real σr νr n
  have hpos : 0 < ∑ k ∈ Finset.range (n + 1), ∑ c : Fin W, Real.exp (σr k c) :=
    Finset.sum_pos (fun k _ => Finset.sum_pos (fun c _ => Real.exp_pos _)
      ⟨⟨0, Nat.pos_of_ne_zero (NeZero.ne W)⟩, Finset.mem_univ _⟩) ⟨0, Finset.mem_range.mpr (Nat.succ_pos n)⟩
  rw [hl, ha, div_coe_coe _ _ (div_ne_zero hpos.ne' (Real.exp_pos mr).ne')]
  congr 1
  field_simp

/-- The textbook form: for a nonempty row of real scores and real values, subtracting the row's maximum (taken once
    more against −∞), exponentiating, dividing by zero plus the sum, and weighting the values gives the same mean. -/
theorem textbook_quotient {ι : Type*} [Fintype ι] [Nonempty ι] (sr vr : ι → ℝ) :
    ∑ j : ι, Ideal.div (Ideal.exp ((sr j : EReal) - max ⊥ ((Finset.univ : Finset ι).fold max ⊥ fun j => (sr j : EReal))))
        (0 + ∑ j' : ι, Ideal.exp ((sr j' : EReal) - max ⊥ ((Finset.univ : Finset ι).fold max ⊥ fun j => (sr j : EReal))))
        * (vr j : EReal)
      = (((∑ j : ι, Real.exp (sr j) * vr j) / (∑ j : ι, Real.exp (sr j)) : ℝ) : EReal) := by
  obtain ⟨M, hM⟩ := fold_max_real sr
  have hpos : 0 < ∑ j : ι, Real.exp (sr j) :=
    Finset.sum_pos (fun j _ => Real.exp_pos _) (Finset.univ_nonempty)
  have hden : (0 : EReal) + ∑ j' : ι, Ideal.exp ((sr j' : EReal) - (M : EReal))
      = (((∑ j : ι, Real.exp (sr j)) / Real.exp M : ℝ) : EReal) := by
    rw [zero_add, Finset.sum_div, ← coe_sum]
    refine Finset.sum_congr rfl fun j _ => ?_
    rw [← EReal.coe_sub, Ideal.exp_coe, Real.exp_sub]
  rw [hM, max_eq_right bot_le, hden]
  refine ((Finset.sum_congr rfl fun j _ => ?_).trans
    (coe_sum Finset.univ (fun j => Real.exp (sr j) * vr j / ∑ j, Real.exp (sr j)))).trans (by rw [Finset.sum_div])
  rw [← EReal.coe_sub, Ideal.exp_coe, div_coe_coe _ _ (div_ne_zero hpos.ne' (Real.exp_pos M).ne'), ← EReal.coe_mul,
    Real.exp_sub]
  congr 1
  field_simp

/-- Column c of tile k among 4 · 1024 columns. -/
abbrev col (k : ℕ) (c : Fin 1024) : Fin 4096 := ⟨(1024 * k + c.val) % 4096, Nat.mod_lt _ (by decide)⟩

/-- A sum over the 4096 columns is the sum over the 4 tiles of the sums over a tile's 1024 columns. -/
theorem sum_cols (g : Fin 4096 → ℝ) :
    ∑ j : Fin 4096, g j = ∑ k ∈ Finset.range 4, ∑ c : Fin 1024, g (col k c) := by
  rw [Finset.sum_range (fun k => ∑ c : Fin 1024, g (col k c)), ← Equiv.sum_comp (finProdFinEquiv (m := 4) (n := 1024)),
    Fintype.sum_prod_type]
  refine Finset.sum_congr rfl fun k _ => Finset.sum_congr rfl fun c _ => congrArg g (Fin.ext ?_)
  have hk := k.isLt; have hc := c.isLt
  show c.val + 1024 * k.val = (1024 * k.val + c.val) % 4096
  omega

end Cert.OnlineSoftmax

end
-- ==== Proof.StepReads.lean ====
/-
  One key tile's update of a row's online-softmax state, read at an index at the ideal values.

  For the cached query tile qb, the key tile kt, the value tile vt and what the point before left (mp, lp, ap), row r of
  the tile's scaled scores is  s c = (∑_e qb (r, e) · kt (c, e)) · 2⁻³ ; the new maximum at r is max (mp r) (max_c s c), the
  new normalizer exp (mp r − m') · lp r + ∑_c exp (s c − m'), the new weighted sum at (r, d)
  exp (mp r − m') · ap (r, d) + ∑_c exp (s c − m') · vt (c, d), and the output block at (r, d) their quotient.
-/
import proofs.«159403_j34815004902076_2_alg».proof.Proof.Pieces
import proofs.«159403_j34815004902076_2_alg».proof.Proof.LibSoftmaxRows
import proofs.«159403_j34815004902076_2_alg».proof.Proof.LibTransposedRhsMatmul
import proofs.«159403_j34815004902076_2_alg».proof.Proof.LibPlainMatmul
import proofs.«159403_j34815004902076_2_alg».proof.Proof.LibOnlineSoftmax
import Idealize.ShloMosaic.Lib.ValueIdx
import Idealize.ShloMosaic.Lib.Pipeline.Value
import Idealize.ShloMosaic.PureOps.Ideal.Laws

noncomputable section

open scoped BigOperators

namespace Cert.KernelIdeal.Flash

open Cert.KernelIdeal Cert.KernelIdeal.Gen Idealize.ShloMosaic Idealize.ShloMosaic.ValueIdx Cert.OnlineSoftmax

/-- The three literals of the body at the ideal values: the score scale 2⁻³, minus infinity, zero. -/
abbrev scale : EReal := Ideal.ofBits .f32 0x3E000000#32
abbrev ninf : EReal := Ideal.ofBits .f32 0xFF800000#32
abbrev zero : EReal := Ideal.ofBits .f32 0x00000000#32

/-- A block [1, a, b] with its unit batch axis dropped: entry (i, j) is entry (0, i, j). -/
theorem drop_front_apply {α : Type} {a b : Nat} (v : (⟨3, ![1, a, b]⟩ : Shape).Idx → α)
    (h : (⟨3, ![1, a, b]⟩ : Shape).ShapeCasts ⟨2, ![a, b]⟩) (i : Fin a) (j : Fin b) :
    shapeCast ⟨2, ![a, b]⟩ v h (ix2 i j) = v (ix3 0 i j) :=
  shapeCast_apply v h (ix2 i j) (ix3 0 i j) (by
    rw [Shape.rowMajor_val_two, Shape.rowMajor_val_three]
    show (0 * a + i.val) * b + j.val = i.val * b + j.val
    rw [Nat.zero_mul, Nat.zero_add])

/-- A matrix [a, b] given a unit batch axis in front: entry (0, i, j) is entry (i, j). -/
theorem add_front_apply {α : Type} {a b : Nat} (v : (⟨2, ![a, b]⟩ : Shape).Idx → α)
    (h : (⟨2, ![a, b]⟩ : Shape).ShapeCasts ⟨3, ![1, a, b]⟩) (z : Fin 1) (i : Fin a) (j : Fin b) :
    shapeCast ⟨3, ![1, a, b]⟩ v h (ix3 z i j) = v (ix2 i j) :=
  shapeCast_apply v h (ix3 z i j) (ix2 i j) (by
    rw [Shape.rowMajor_val_two, Shape.rowMajor_val_three]
    show i.val * b + j.val = (z.val * a + i.val) * b + j.val
    have : z.val = 0 := by have := z.isLt; omega
    rw [this, Nat.zero_mul, Nat.zero_add])

/-- Row r of the tile's scaled scores. -/
def tileScores (qb : Vec Ideal S1024x64 .bf16) (kt : Vec Ideal S1x1024x64 .f32) (r : Fin 1024) (c : Fin 1024) : EReal :=
  (∑ e : Fin 64, qb (ix2 r e) * kt (ix3 0 c e)) * scale

theorem scores_apply (qb : Vec Ideal S1024x64 .bf16) (kt : Vec Ideal S1x1024x64 .f32) (r c : Fin 1024) :
    k0_pay9 qb kt (ix2 r c) = tileScores qb kt r c := by
  unfold k0_pay9 tileScores
  refine (mulf_apply _ _ (ix2 r c)).trans (congrArg₂ (· * ·) ?_ rfl)
  refine (TransposedRhsMatmul.transposedRhsMatmul_apply (M := 1024) (K := 64) (N := 1024) none qb _ r c).trans ?_
  refine Finset.sum_congr rfl fun e _ => congrArg (qb (ix2 r e) * ·) ?_
  exact (truncf_apply (ψ := .bf16) (φ := .f32) _ bitsLt_bf16_f32 (ix2 c e)).trans (drop_front_apply kt _ c e)

/-- The new running maximum at row r. -/
theorem newMax_apply (qb : Vec Ideal S1024x64 .bf16) (kt : Vec Ideal S1x1024x64 .f32) (mp : Vec Ideal S1024x1 .f32)
    (r : Fin 1024) :
    k0_pay10 qb kt mp (ix2 r 0) = max (mp (ix2 r 0)) (tileMax ninf (tileScores qb kt r)) := by
  unfold k0_pay10 tileMax
  refine (maximumf_apply _ _ (ix2 r 0)).trans (congrArg (max (mp (ix2 r 0))) ?_)
  refine (Keepdims.cast_col_apply _ _ r 0).trans ?_
  refine (SoftmaxRows.rowMax2_apply (n0 := 1024) (n1 := 1024) (k0_pay9 qb kt) _ _ _ _ r).trans ?_
  exact Finset.fold_congr fun c _ => scores_apply qb kt r c

theorem stepM_apply (qb : Vec Ideal S1024x64 .bf16) (kt : Vec Ideal S1x1024x64 .f32) (mp : Vec Ideal S1024x1 .f32)
    (r : Fin 1024) :
    stepM qb kt mp (ix2 r 0) = max (mp (ix2 r 0)) (tileMax ninf (tileScores qb kt r)) := by
  show k0_pay2 (k0_pay10 qb kt mp) (ix2 r 0) = _
  unfold k0_pay2
  rw [shapeCast_self]
  exact newMax_apply qb kt mp r

/-- The rescaling factor exp (old maximum − new maximum) at row r. -/
theorem alpha_apply (qb : Vec Ideal S1024x64 .bf16) (kt : Vec Ideal S1x1024x64 .f32) (mp : Vec Ideal S1024x1 .f32)
    (r : Fin 1024) :
    k0_pay11 qb kt mp (ix2 r 0)
      = Ideal.exp (mp (ix2 r 0) - max (mp (ix2 r 0)) (tileMax ninf (tileScores qb kt r))) := by
  unfold k0_pay11
  show Ideal.exp (mp (ix2 r 0) - k0_pay10 qb kt mp (ix2 r 0)) = _
  rw [newMax_apply]

/-- The tile's weights exp (score − new maximum) at (r, c). -/
theorem weights_apply (qb : Vec Ideal S1024x64 .bf16) (kt : Vec Ideal S1x1024x64 .f32) (mp : Vec Ideal S1024x1 .f32)
    (r c : Fin 1024) :
    k0_pay12 qb kt mp (ix2 r c)
      = Ideal.exp (tileScores qb kt r c - max (mp (ix2 r 0)) (tileMax ninf (tileScores qb kt r))) := by
  unfold k0_pay12
  show Ideal.exp (k0_pay9 qb kt (ix2 r c) - broadcastTo S1024x1024 (k0_pay10 qb kt mp) _ (ix2 r c)) = _
  rw [scores_apply, Keepdims.bcast_col_apply (a := 1024) (b := 1024) (k0_pay10 qb kt mp) _ r c, newMax_apply]

theorem stepL_apply (qb : Vec Ideal S1024x64 .bf16) (kt : Vec Ideal S1x1024x64 .f32) (mp lp : Vec Ideal S1024x1 .f32)
    (r : Fin 1024) :
    stepL qb kt mp lp (ix2 r 0)
      = Ideal.exp (mp (ix2 r 0) - max (mp (ix2 r 0)) (tileMax ninf (tileScores qb kt r))) * lp (ix2 r 0)
        + ∑ c : Fin 1024, Ideal.exp (tileScores qb kt r c - max (mp (ix2 r 0)) (tileMax ninf (tileScores qb kt r))) := by
  show k0_pay13 qb kt mp lp (ix2 r 0) = _
  unfold k0_pay13
  rw [shapeCast_self]
  refine (addf_apply _ _ (ix2 r 0)).trans (congrArg₂ (· + ·) ?_ ?_)
  · exact (mulf_apply _ _ (ix2 r 0)).trans (congrArg (· * lp (ix2 r 0)) (alpha_apply qb kt mp r))
  · refine (Keepdims.cast_col_apply _ _ r 0).trans ?_
    refine (Keepdims.rowSum2_apply (n0 := 1024) (n1 := 1024) (k0_pay12 qb kt mp) _ _ _ _ r).trans ?_
    exact Finset.sum_congr rfl fun c _ => weights_apply qb kt mp r c

theorem stepAcc_apply (qb : Vec Ideal S1024x64 .bf16) (kt vt : Vec Ideal S1x1024x64 .f32) (mp : Vec Ideal S1024x1 .f32)
    (ap : Vec Ideal S1024x64 .f32) (r : Fin 1024) (d : Fin 64) :
    stepAcc qb kt vt mp ap (ix2 r d)
      = Ideal.exp (mp (ix2 r 0) - max (mp (ix2 r 0)) (tileMax ninf (tileScores qb kt r))) * ap (ix2 r d)
        + ∑ c : Fin 1024, Ideal.exp (tileScores qb kt r c - max (mp (ix2 r 0)) (tileMax ninf (tileScores qb kt r)))
            * vt (ix3 0 c d) := by
  show k0_pay1 (k0_pay8 vt) (k0_pay11 qb kt mp) (k0_pay12 qb kt mp) ap (ix2 r d) = _
  unfold k0_pay1
  rw [shapeCast_self]
  refine (addf_apply _ _ (ix2 r d)).trans (congrArg₂ (· + ·) ?_ ?_)
  · refine (mulf_apply _ _ (ix2 r d)).trans (congrArg (· * ap (ix2 r d)) ?_)
    exact (Keepdims.bcast_col_apply (a := 1024) (b := 64) (k0_pay11 qb kt mp) _ r d).trans (alpha_apply qb kt mp r)
  · refine (PlainMatmul.plainMatmul_apply (M := 1024) (K := 1024) (N := 64) none _ (k0_pay8 vt) r d).trans ?_
    refine Finset.sum_congr rfl fun c _ => congrArg₂ (· * ·) ?_ ?_
    · exact (truncf_apply (ψ := .bf16) (φ := .f32) _ bitsLt_bf16_f32 (ix2 r c)).trans (weights_apply qb kt mp r c)
    · unfold k0_pay8
      exact (truncf_apply (ψ := .bf16) (φ := .f32) _ bitsLt_bf16_f32 (ix2 c d)).trans (drop_front_apply vt _ c d)

/-- The output block at (0, r, d): the weighted sum over the normalizer. -/
theorem outBlock_apply (a : Vec Ideal S1024x64 .f32) (l : Vec Ideal S1024x1 .f32) (r : Fin 1024) (d : Fin 64) :
    outBlock a l (ix3 0 r d) = Ideal.div (a (ix2 r d)) (l (ix2 r 0)) := by
  show k0_pay3 a l (ix3 0 r d) = _
  unfold k0_pay3
  refine (add_front_apply _ _ 0 r d).trans ?_
  refine (divf_apply _ _ (ix2 r d)).trans (congrArg (Ideal.div (a (ix2 r d))) ?_)
  exact Keepdims.bcast_col_apply (a := 1024) (b := 64) l _ r d

/-- The cached query tile at (r, e): the query block's entry (0, r, e). -/
theorem qCache_apply (x0 : Vec Ideal S1x1024x64 .f32) (r : Fin 1024) (e : Fin 64) :
    qCache x0 (ix2 r e) = x0 (ix3 0 r e) := by
  show k0_pay7 x0 (ix2 r e) = _
  unfold k0_pay7
  rw [shapeCast_self]
  exact (truncf_apply (ψ := .bf16) (φ := .f32) _ bitsLt_bf16_f32 (ix2 r e)).trans (drop_front_apply x0 _ r e)

/-- The starting values, at any index. -/
theorem m0_apply (j : S1024x1.Idx) : (m0 (F := Ideal)) j = ninf := by
  show k0_pay4 (F := Ideal) j = _
  unfold k0_pay4
  rw [shapeCast_self]; rfl
theorem l0_apply (j : S1024x1.Idx) : (l0 (F := Ideal)) j = zero := by
  show k0_pay5 (F := Ideal) j = _
  unfold k0_pay5
  rw [shapeCast_self]; rfl
theorem acc0_apply (j : S1024x64.Idx) : (acc0 (F := Ideal)) j = zero := by
  show k0_pay6 (F := Ideal) j = _
  unfold k0_pay6
  rw [shapeCast_self]; rfl

end Cert.KernelIdeal.Flash

end
-- ==== Proof.BlockReads.lean ====
/-
  Where the blocks of a grid point sit in the arrays. Point t = (16·b + 4·qi + ki in row-major order of the 16 × 4 × 4 grid) reads
  the query block of batch b, rows 1024·qi … 1024·qi + 1023; the whole key and value blocks of batch b, of which the body
  takes rows 1024·ki … 1024·ki + 1023; and owns the output block at the query block's place.
-/
import proofs.«159403_j34815004902076_2_alg».proof.Proof.Gen.KernelIdeal.Frame
import Idealize.ShloMosaic.Lib.Pipeline.Value
import Idealize.ShloMosaic.Lib.Tactic
import proofs.«159403_j34815004902076_2_alg».proof.Proof.Pieces
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.Flash
open Cert.KernelIdeal Cert.KernelIdeal.Gen Idealize.ShloMosaic.ValueIdx
variable {F : FTy → Type} [FloatOps F]
variable (m : (ℓ : Loc nD τ sig) → Buf (Elt F) ℓ)

/-- The printed index maps and the tile offset, decided over the grid. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = t.val / 4 % 4 ∧ win0_3.index t (2 : Fin 3) = 0
    ∧ k0_off1 (grid0.coords t) (0 : Fin 3) = 0 ∧ k0_off1 (grid0.coords t) (1 : Fin 3) = 1024 * (t.val % 4) ∧ k0_off1 (grid0.coords t) (2 : Fin 3) = 0 :=
  (by decide +kernel : ∀ t : Fin grid0.N, _)

/-- The query block of point t at (0, r, e) is the query array at (t / 16, 1024 (t / 4 mod 4) + r, e). -/
theorem qblock_apply (c : Dev nD) (t : Fin cfg0.N) (r : Fin 1024) (e : Fin 64) :
    (iblk m c 0 t : Vec F S1x1024x64 .f32) (ix3 0 r e)
      = m ((c : Thread nD τ).loc main_arg0) (ix3 ⟨t.val / 16, by have := t.isLt; have : cfg0.N = 256 := N_0; omega⟩ ⟨1024 * (t.val / 4 % 4) + r.val, by have := r.isLt; omega⟩ e) := by
  obtain ⟨e0, e1, e2, -⟩ := idx_facts t
  show V m c main_arg0 (((cfg0.win 0).blk t).view.emb (ix3 0 r e)) = _
  refine congrArg _ (funext fun a => Fin.ext ?_)
  match a with
  | ⟨0, _⟩ => show win0_0.index t (0 : Fin 3) * 1 + 1 * 0 = t.val / 16; omega
  | ⟨1, _⟩ => show win0_0.index t (1 : Fin 3) * 1024 + 1 * r.val = 1024 * (t.val / 4 % 4) + r.val; omega
  | ⟨2, _⟩ => show win0_0.index t (2 : Fin 3) * 64 + 1 * e.val = e.val; omega

/-- The key tile of point t at (0, c, e) is the key array at (t / 16, 1024 (t mod 4) + c, e). -/
theorem ktile_apply (c : Dev nD) (t : Fin cfg0.N) (cc : Fin 1024) (e : Fin 64) :
    kvTile (grid0.coords t) (iblk m c 1 t) (ix3 0 cc e)
      = m ((c : Thread nD τ).loc main_arg1) (ix3 ⟨t.val / 16, by have := t.isLt; have : cfg0.N = 256 := N_0; omega⟩ ⟨(1024 * (t.val % 4) + cc.val) % 4096, Nat.mod_lt _ (by decide)⟩ e) := by
  obtain ⟨-, -, -, e0, e1, e2, -, -, -, -, -, -, o0, o1, o2⟩ := idx_facts t
  show V m c main_arg1 (((cfg0.win 1).blk t).view.emb ((Rect.unit (s := S1x4096x64) (k0_off1 (grid0.coords t)) S1x1024x64.size (k0_off1_inb (grid0.coords t))).idx (ix3 0 cc e))) = _
  refine congrArg _ (funext fun a => Fin.ext ?_)
  match a with
  | ⟨0, _⟩ => show win0_1.index t (0 : Fin 3) * 1 + 1 * (k0_off1 (grid0.coords t) (0 : Fin 3) + 1 * 0) = t.val / 16; omega
  | ⟨1, _⟩ => show win0_1.index t (1 : Fin 3) * 4096 + 1 * (k0_off1 (grid0.coords t) (1 : Fin 3) + 1 * cc.val) = (1024 * (t.val % 4) + cc.val) % 4096; have := cc.isLt; omega
  | ⟨2, _⟩ => show win0_1.index t (2 : Fin 3) * 64 + 1 * (k0_off1 (grid0.coords t) (2 : Fin 3) + 1 * e.val) = e.val; omega

/-- The value tile of point t at (0, c, d) is the value array at (t / 16, 1024 (t mod 4) + c, d). -/
theorem vtile_apply (c : Dev nD) (t : Fin cfg0.N) (cc : Fin 1024) (e : Fin 64) :
    kvTile (grid0.coords t) (iblk m c 2 t) (ix3 0 cc e)
      = m ((c : Thread nD τ).loc main_arg2) (ix3 ⟨t.val / 16, by have := t.isLt; have : cfg0.N = 256 := N_0; omega⟩ ⟨(1024 * (t.val % 4) + cc.val) % 4096, Nat.mod_lt _ (by decide)⟩ e) := by
  obtain ⟨-, -, -, -, -, -, e0, e1, e2, -, -, -, o0, o1, o2⟩ := idx_facts t
  show V m c main_arg2 (((cfg0.win 2).blk t).view.emb ((Rect.unit (s := S1x4096x64) (k0_off1 (grid0.coords t)) S1x1024x64.size (k0_off1_inb (grid0.coords t))).idx (ix3 0 cc e))) = _
  refine congrArg _ (funext fun a => Fin.ext ?_)
  match a with
  | ⟨0, _⟩ => show win0_2.index t (0 : Fin 3) * 1 + 1 * (k0_off1 (grid0.coords t) (0 : Fin 3) + 1 * 0) = t.val / 16; omega
  | ⟨1, _⟩ => show win0_2.index t (1 : Fin 3) * 4096 + 1 * (k0_off1 (grid0.coords t) (1 : Fin 3) + 1 * cc.val) = (1024 * (t.val % 4) + cc.val) % 4096; have := cc.isLt; omega
  | ⟨2, _⟩ => show win0_2.index t (2 : Fin 3) * 64 + 1 * (k0_off1 (grid0.coords t) (2 : Fin 3) + 1 * e.val) = e.val; omega

end Cert.KernelIdeal.Flash
end
-- ==== Proof.AttentionSpec.lean ====
/-
  Scaled dot-product attention over arrays [16, 4096, 64], two ways, on the extended reals.

  The online way: output (b, i, d) is the online softmax of row i of batch b — the scores (∑_e Q (b, i, e) · K (b, j, e)) · scale
  met in 4 tiles of 1024 keys — with the values V (b, j, d), its weighted sum over its normalizer after the fourth tile.
  The textbook way: scores as the quotient of the same sums by a divisor, the row's maximum subtracted, exponentiated,
  divided by the row's sum, then the weighted sum of the values. For real arrays, scale 2⁻³ and divisor 8, the two agree:
  both are the softmax-weighted mean of the values (the two closed forms of the online-softmax file), over the same 4096
  columns.
-/
import proofs.«159403_j34815004902076_2_alg».proof.Proof.LibOnlineSoftmax
import Idealize.ShloMosaic.Lib.ValueIdx

noncomputable section

open scoped BigOperators

namespace Cert.Attention

open Idealize.ShloMosaic Idealize.ShloMosaic.ValueIdx Cert.OnlineSoftmax

/-- An array [16, 4096, 64] of extended reals. -/
abbrev Arr := (⟨3, ![16, 4096, 64]⟩ : Shape).Idx → EReal

/-- The scaled scores of query row (b, i), tile k, column c. -/
def rowScores (scale : EReal) (Q K : Arr) (b : Fin 16) (i : Fin 4096) : ℕ → Fin 1024 → EReal :=
  fun k c => (∑ e : Fin 64, Q (ix3 b i e) * K (ix3 b (col k c) e)) * scale

/-- Column d of the values of batch b, tile k, row c. -/
def colValues (V : Arr) (b : Fin 16) (d : Fin 64) : ℕ → Fin 1024 → EReal := fun k c => V (ix3 b (col k c) d)

/-- Attention the online way. -/
def flash (scale ninf z : EReal) (Q K V : Arr) : Arr := fun j =>
  Ideal.div (aSt ninf z (rowScores scale Q K (j 0) (j 1)) (colValues V (j 0) (j 2)) 4)
    (lSt ninf z (rowScores scale Q K (j 0) (j 1)) 4)

/-- The textbook scores of query row (b, i) against key j. -/
def plainScores (divisor : EReal) (Q K : Arr) (b : Fin 16) (i : Fin 4096) : Fin 4096 → EReal :=
  fun j => Ideal.div (∑ e : Fin 64, Q (ix3 b i e) * K (ix3 b j e)) divisor

/-- Attention the textbook way. -/
def textbook (divisor ninf z : EReal) (Q K V : Arr) : Arr := fun j =>
  ∑ k : Fin 4096,
    Ideal.div (Ideal.exp (plainScores divisor Q K (j 0) (j 1) k
          - max ninf ((Finset.univ : Finset (Fin 4096)).fold max ninf (plainScores divisor Q K (j 0) (j 1)))))
        (z + ∑ k' : Fin 4096, Ideal.exp (plainScores divisor Q K (j 0) (j 1) k'
          - max ninf ((Finset.univ : Finset (Fin 4096)).fold max ninf (plainScores divisor Q K (j 0) (j 1)))))
      * V (ix3 (j 0) k (j 2))

/-- For arrays of real numbers the two agree. -/
theorem flash_eq_textbook (Q K V : Arr) (hQ : ∀ i, ∃ r : ℝ, Q i = r) (hK : ∀ i, ∃ r : ℝ, K i = r) (hV : ∀ i, ∃ r : ℝ, V i = r)
    (j : (⟨3, ![16, 4096, 64]⟩ : Shape).Idx) :
    flash (((1 / 8 : ℝ) : ℝ) : EReal) ⊥ 0 Q K V j = textbook ((8 : ℝ) : EReal) ⊥ 0 Q K V j := by
  choose q hq using hQ
  choose kk hk using hK
  choose v hv using hV
  -- the real scores of row (j 0, j 1)
  let sr : Fin 4096 → ℝ := fun k => (∑ e : Fin 64, q (ix3 (j 0) (j 1) e) * kk (ix3 (j 0) k e)) / 8
  let vr : Fin 4096 → ℝ := fun k => v (ix3 (j 0) k (j 2))
  have hdot : ∀ k : Fin 4096, (∑ e : Fin 64, Q (ix3 (j 0) (j 1) e) * K (ix3 (j 0) k e))
      = ((∑ e : Fin 64, q (ix3 (j 0) (j 1) e) * kk (ix3 (j 0) k e) : ℝ) : EReal) := fun k => by
    rw [← coe_sum]
    exact Finset.sum_congr rfl fun e _ => by rw [hq, hk, EReal.coe_mul]
  have hσ : rowScores (((1 / 8 : ℝ) : ℝ) : EReal) Q K (j 0) (j 1) = fun k c => ((sr (col k c) : ℝ) : EReal) := by
    funext k c
    show (∑ e : Fin 64, Q (ix3 (j 0) (j 1) e) * K (ix3 (j 0) (col k c) e)) * _ = _
    rw [hdot, ← EReal.coe_mul]
    congr 1
    show _ = (∑ e : Fin 64, q (ix3 (j 0) (j 1) e) * kk (ix3 (j 0) (col k c) e)) / 8
    ring
  have hν : colValues V (j 0) (j 2) = fun k c => ((vr (col k c) : ℝ) : EReal) := by
    funext k c
    exact hv _
  have hS : plainScores ((8 : ℝ) : EReal) Q K (j 0) (j 1) = fun k => ((sr k : ℝ) : EReal) := by
    funext k
    show Ideal.div (∑ e : Fin 64, Q (ix3 (j 0) (j 1) e) * K (ix3 (j 0) k e)) _ = _
    rw [hdot, div_coe_coe _ _ (by norm_num)]
  unfold flash textbook
  rw [hσ, hν, hS]
  rw [online_quotient (fun k c => sr (col k c)) (fun k c => vr (col k c)) 3]
  have ht := textbook_quotient sr vr
  simp only [hv] at ht ⊢
  rw [ht, sum_cols (fun k => Real.exp (sr k) * vr k), sum_cols (fun k => Real.exp (sr k))]

end Cert.Attention

end
-- ==== Proof.KernelValue.lean ====
/-
  What the flash-attention kernel's result array holds after its run, at the ideal values.

  By induction on the grid point: after the point with key-tile coordinate ki, row r of the three carried buffers holds
  the online-softmax state of the row block's row r after ki + 1 key tiles (the recursion of the online-softmax file over
  the arrays' own scores and values), and the fourth carried buffer the row block's query rows. The last key tile's output
  block is the weighted sum over the normalizer, so each write-back writes a block of the attention function, and the
  write-backs cover the array.
-/
import proofs.«159403_j34815004902076_2_alg».proof.Proof.StepReads
import proofs.«159403_j34815004902076_2_alg».proof.Proof.BlockReads
import proofs.«159403_j34815004902076_2_alg».proof.Proof.AttentionSpec
import proofs.«159403_j34815004902076_2_alg».proof.Proof.Gen.KernelIdeal.Value
import Idealize.ShloMosaic.Lib.Pipeline.Value

set_option maxRecDepth 16384

noncomputable section

open scoped BigOperators

namespace Cert.KernelIdeal.Flash

open Cert.KernelIdeal Cert.KernelIdeal.Gen Idealize.ShloMosaic Idealize.ShloMosaic.TcCoe Idealize.SL.Sem
open Idealize.ShloMosaic.ValueIdx Cert.OnlineSoftmax Cert.Attention
open Idealize.ShloMosaic.Pipeline (Dat)

variable (m : (ℓ : Loc nD τ sig) → Buf (Elt Ideal) ℓ) (ρ : Dev nD → PrngReg)

/-- The three argument arrays as launched. -/
abbrev Qa (c : Dev nD) : Arr := m ((c : Thread nD τ).loc main_arg0)
abbrev Ka (c : Dev nD) : Arr := m ((c : Thread nD τ).loc main_arg1)
abbrev Va (c : Dev nD) : Arr := m ((c : Thread nD τ).loc main_arg2)

/-- The batch of grid point n, and the array row of its row block's row r. -/
abbrev bOf (n : ℕ) (h : n < cfg0.N) : Fin 16 := ⟨n / 16, by have : cfg0.N = 256 := N_0; omega⟩
abbrev rowOf (n : ℕ) (r : Fin 1024) : Fin 4096 := ⟨1024 * (n / 4 % 4) + r.val, by have := r.isLt; omega⟩

/-- One key tile on row r, from the state before tile k to the state before tile k + 1. -/
theorem row_step (qb : Vec Ideal S1024x64 .bf16) (kt vt : Vec Ideal S1x1024x64 .f32) (mp lp : Vec Ideal S1024x1 .f32)
    (ap : Vec Ideal S1024x64 .f32) (r : Fin 1024) (σ : ℕ → Fin 1024 → EReal) (ν : Fin 64 → ℕ → Fin 1024 → EReal) (k : ℕ)
    (hS : tileScores qb kt r = σ k) (hV : ∀ (d : Fin 64) (cc : Fin 1024), vt (ix3 0 cc d) = ν d k cc)
    (hm : mp (ix2 r 0) = mSt ninf σ k) (hl : lp (ix2 r 0) = lSt ninf zero σ k)
    (ha : ∀ d : Fin 64, ap (ix2 r d) = aSt ninf zero σ (ν d) k) :
    stepM qb kt mp (ix2 r 0) = mSt ninf σ (k + 1)
      ∧ stepL qb kt mp lp (ix2 r 0) = lSt ninf zero σ (k + 1)
      ∧ ∀ d : Fin 64, stepAcc qb kt vt mp ap (ix2 r d) = aSt ninf zero σ (ν d) (k + 1) := by
  refine ⟨?_, ?_, fun d => ?_⟩
  · rw [stepM_apply, hS, hm]; rfl
  · rw [stepL_apply, hS, hm, hl]; rfl
  · rw [stepAcc_apply, hS, hm, ha d]
    simp only [hV d]
    rfl

/-- The scores of row r of a point's tile are the arrays' scores of the row, tile t mod 4. -/
theorem tileScores_eq (c : Dev nD) (t : Fin cfg0.N) (r : Fin 1024) (qb : Vec Ideal S1024x64 .bf16)
    (hq : ∀ e : Fin 64, qb (ix2 r e) = Qa m c (ix3 (bOf t.val t.isLt) (rowOf t.val r) e)) :
    tileScores qb (kvTile (grid0.coords t) (iblk m c 1 t)) r
      = rowScores scale (Qa m c) (Ka m c) (bOf t.val t.isLt) (rowOf t.val r) (t.val % 4) := by
  funext cc
  unfold tileScores rowScores
  refine congrArg (· * scale) (Finset.sum_congr rfl fun e _ => ?_)
  exact congrArg₂ (· * ·) (hq e) (ktile_apply m c t cc e)

/-- Row r of the carried buffers after grid point n: the online-softmax state of the array row after n mod 4 + 1 key tiles,
    and the row block's query row. -/
theorem carried_eq (c : Dev nD) : ∀ (n : ℕ) (h : n < cfg0.N) (r : Fin 1024),
    (outsAt0 m c n h).2.1 (ix2 r 0)
        = mSt ninf (rowScores scale (Qa m c) (Ka m c) (bOf n h) (rowOf n r)) (n % 4 + 1)
    ∧ (outsAt0 m c n h).2.2.1 (ix2 r 0)
        = lSt ninf zero (rowScores scale (Qa m c) (Ka m c) (bOf n h) (rowOf n r)) (n % 4 + 1)
    ∧ (∀ d : Fin 64, (outsAt0 m c n h).2.2.2.1 (ix2 r d)
        = aSt ninf zero (rowScores scale (Qa m c) (Ka m c) (bOf n h) (rowOf n r)) (colValues (Va m c) (bOf n h) d) (n % 4 + 1))
    ∧ (∀ e : Fin 64, (outsAt0 m c n h).2.2.2.2 (ix2 r e) = Qa m c (ix3 (bOf n h) (rowOf n r) e)) := by
  -- a point that opens a row block: the state after one tile, from the starting values
  have first : ∀ (t : Fin cfg0.N) (h0 : t.val % 4 = 0) (h1 : ¬t.val % 4 = 3) (r : Fin 1024),
      (outsAt0 m c t.val t.isLt).2.1 (ix2 r 0)
          = mSt ninf (rowScores scale (Qa m c) (Ka m c) (bOf t.val t.isLt) (rowOf t.val r)) (t.val % 4 + 1)
      ∧ (outsAt0 m c t.val t.isLt).2.2.1 (ix2 r 0)
          = lSt ninf zero (rowScores scale (Qa m c) (Ka m c) (bOf t.val t.isLt) (rowOf t.val r)) (t.val % 4 + 1)
      ∧ (∀ d : Fin 64, (outsAt0 m c t.val t.isLt).2.2.2.1 (ix2 r d)
          = aSt ninf zero (rowScores scale (Qa m c) (Ka m c) (bOf t.val t.isLt) (rowOf t.val r)) (colValues (Va m c) (bOf t.val t.isLt) d) (t.val % 4 + 1))
      ∧ (∀ e : Fin 64, (outsAt0 m c t.val t.isLt).2.2.2.2 (ix2 r e) = Qa m c (ix3 (bOf t.val t.isLt) (rowOf t.val r) e)) := by
    intro t h0 h1 r
    have hq : ∀ e : Fin 64, qCache (iblk m c 0 t) (ix2 r e) = Qa m c (ix3 (bOf t.val t.isLt) (rowOf t.val r) e) :=
      fun e => (qCache_apply (iblk m c 0 t) r e).trans (qblock_apply m c t r e)
    obtain ⟨s1, s2, s3⟩ := row_step (qCache (iblk m c 0 t)) (kvTile (grid0.coords t) (iblk m c 1 t))
      (kvTile (grid0.coords t) (iblk m c 2 t)) m0 l0 acc0 r
      (rowScores scale (Qa m c) (Ka m c) (bOf t.val t.isLt) (rowOf t.val r)) (fun d => colValues (Va m c) (bOf t.val t.isLt) d) (t.val % 4)
      (tileScores_eq m c t r _ hq) (fun d cc => vtile_apply m c t cc d)
      (by rw [m0_apply, h0]; rfl) (by rw [l0_apply, h0]; rfl) (fun d => by rw [acc0_apply, h0]; rfl)
    rw [outsAt0_A m c t h0 h1]
    dsimp only
    refine ⟨?_, ?_, fun d => ?_, fun e => ?_⟩
    · exact (congrFun (sout_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)) (ix2 r 0)).trans s1
    · exact (congrFun (sout_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)) (ix2 r 0)).trans s2
    · exact (congrFun (sout_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)) (ix2 r d)).trans (s3 d)
    · exact (congrFun (sout_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)) (ix2 r e)).trans (hq e)
  intro n
  induction n with
  | zero => intro h r; exact first ⟨0, h⟩ rfl (by show ¬(0 % 4 = 3); decide) r
  | succ n ih =>
    intro h r
    have hN : n + 1 < 256 := lt_of_lt_of_eq h (show cfg0.N = 256 from N_0)
    by_cases h0 : (n + 1) % 4 = 0
    · exact first ⟨n + 1, h⟩ h0 (by dsimp only; omega) r
    · -- a later key tile of the same row block: one more tile on what the point before left
      have ihr := ih (Nat.lt_of_succ_lt h) r
      have hb : bOf n (Nat.lt_of_succ_lt h) = bOf (n + 1) h := Fin.ext (by show n / 16 = (n + 1) / 16; omega)
      have hrow : rowOf n r = rowOf (n + 1) r := Fin.ext (by show 1024 * (n / 4 % 4) + r.val = 1024 * ((n + 1) / 4 % 4) + r.val; omega)
      have hk : n % 4 + 1 = (n + 1) % 4 := by omega
      rw [hb, hrow, hk] at ihr
      obtain ⟨i1, i2, i3, i4⟩ := ihr
      let t : Fin cfg0.N := ⟨n + 1, h⟩
      obtain ⟨s1, s2, s3⟩ := row_step (outsAt0 m c n (Nat.lt_of_succ_lt h)).2.2.2.2 (kvTile (grid0.coords t) (iblk m c 1 t))
        (kvTile (grid0.coords t) (iblk m c 2 t)) (outsAt0 m c n (Nat.lt_of_succ_lt h)).2.1 (outsAt0 m c n (Nat.lt_of_succ_lt h)).2.2.1
        (outsAt0 m c n (Nat.lt_of_succ_lt h)).2.2.2.1 r
        (rowScores scale (Qa m c) (Ka m c) (bOf (n + 1) h) (rowOf (n + 1) r)) (fun d => colValues (Va m c) (bOf (n + 1) h) d) ((n + 1) % 4)
        (tileScores_eq m c t r _ i4) (fun d cc => vtile_apply m c t cc d) i1 i2 i3
      by_cases h1 : (n + 1) % 4 = 3
      · have hC := outsAt0_C m c t h0 h1
        rw [show outsAt0 m c (n + 1) h = _ from hC]
        dsimp only
        refine ⟨?_, ?_, fun d => ?_, fun e => ?_⟩
        · exact (congrFun (sout_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2) (ix2 r 0)).trans s1
        · exact (congrFun (sout_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2) (ix2 r 0)).trans s2
        · exact (congrFun (sout_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2) (ix2 r d)).trans (s3 d)
        · exact i4 e
      · have hB := outsAt0_B m c t h0 h1
        rw [show outsAt0 m c (n + 1) h = _ from hB]
        dsimp only
        refine ⟨?_, ?_, fun d => ?_, fun e => ?_⟩
        · exact (congrFun (sout_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2) (ix2 r 0)).trans s1
        · exact (congrFun (sout_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2) (ix2 r 0)).trans s2
        · exact (congrFun (sout_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2) (ix2 r d)).trans (s3 d)
        · exact i4 e

end Cert.KernelIdeal.Flash

end
-- ==== Proof.KernelRun.lean ====
/-
  From the carried buffers to the result array. At the last key tile of a row block the body stores the output block — the
  weighted sum over the normalizer, which by the invariant is attention of the arrays at the block's rows — and only these
  points write back; their blocks (batch b, rows 1024·qi … 1024·qi + 1023) cover the array. So after the run the result array
  is attention, the online way, of the three argument arrays.
-/
import proofs.«159403_j34815004902076_2_alg».proof.Proof.KernelValue

set_option maxRecDepth 16384

noncomputable section

open scoped BigOperators

namespace Cert.KernelIdeal.Flash

open Cert.KernelIdeal Cert.KernelIdeal.Gen Idealize.ShloMosaic Idealize.ShloMosaic.TcCoe Idealize.SL.Sem
open Idealize.ShloMosaic.ValueIdx Cert.OnlineSoftmax Cert.Attention
open Idealize.ShloMosaic.Pipeline (Dat)

variable (m : (ℓ : Loc nD τ sig) → Buf (Elt Ideal) ℓ) (ρ : Dev nD → PrngReg)

/-- The result: attention, the online way, of the argument arrays as launched. -/
abbrev result (c : Dev nD) : Buf (Elt Ideal) ((c : Thread nD τ).loc main_v0) :=
  flash scale ninf zero (Qa m c) (Ka m c) (Va m c)

/-- At a last key tile the output buffer holds the new weighted sum over the new normalizer. -/
theorem out_eq (c : Dev nD) (t : Fin cfg0.N) (h0 : ¬t.val % 4 = 0) (h1 : t.val % 4 = 3) :
    (outsAt0 m c t.val t.isLt).1
      = outBlock (outsAt0 m c t.val t.isLt).2.2.2.1 (outsAt0 m c t.val t.isLt).2.2.1 := by
  rw [outsAt0_C m c t h0 h1]
  dsimp only
  rw [out_C_3, sout_C_2, sout_C_1]

/-- What a write-back writes is the block of the result at the point's place. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have h0 : ¬t.val % 4 = 0 := by omega
  obtain ⟨-, -, -, -, -, -, -, -, -, e0, e1, e2, -⟩ := idx_facts t
  rw [Value.flushed3]
  funext j
  obtain ⟨z, r, d, rfl⟩ : ∃ (z : Fin 1) (r : Fin 1024) (d : Fin 64), j = ix3 z r d := ⟨j 0, j 1, j 2, eq_ix3 j⟩
  obtain rfl : z = 0 := Subsingleton.elim _ _
  show (outsAt0 m c t.val t.isLt).1 (ix3 0 r d) = result m c (((cfg0.win 3).blk t).view.emb (ix3 0 r d))
  have hemb : ((cfg0.win 3).blk t).view.emb (ix3 0 r d) = ix3 (bOf t.val t.isLt) (rowOf t.val r) d := by
    funext a; apply Fin.ext
    match a with
    | ⟨0, _⟩ => show win0_3.index t (0 : Fin 3) * 1 + 1 * 0 = t.val / 16; omega
    | ⟨1, _⟩ => show win0_3.index t (1 : Fin 3) * 1024 + 1 * r.val = 1024 * (t.val / 4 % 4) + r.val; omega
    | ⟨2, _⟩ => show win0_3.index t (2 : Fin 3) * 64 + 1 * d.val = d.val; omega
  obtain ⟨-, i2, i3, -⟩ := carried_eq m c t.val t.isLt r
  rw [hemb, out_eq m c t h0 h1, outBlock_apply, i2, i3 d, h1]
  rfl

/-- An index of the array is in point t's output block iff each coordinate is in the block's range on its axis. -/
theorem mem_blk (t : Fin cfg0.N) (i : S16x4096x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v0).slice (win0_3.rect t)).set ↔ _
  rw [View.set_slice_whole, Rect.mem_set_unit]
  exact Iff.rfl

/-- Every index of the array is in the block of some write-back: the last key tile of its batch and row block. -/
theorem cover (i : S16x4096x64.Idx) : ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 64 := (i 2).isLt
  have hN : cfg0.N = 256 := N_0
  let t : Fin cfg0.N := ⟨16 * (i 0).val + 4 * ((i 1).val / 1024) + 3, by omega⟩
  have ht : t.val = 16 * (i 0).val + 4 * ((i 1).val / 1024) + 3 := rfl
  obtain ⟨-, -, -, -, -, -, -, -, -, e0, e1, e2, -⟩ := idx_facts t
  refine ⟨t, (flush0_3 t).mpr (by omega), ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- So the result array ends holding the result. -/
theorem final (c : Dev nD) : (dats m 0 c).arrAt 3 cfg0.N = result m c :=
  (dats m 0 c).arrAt_eq_of_cover 3 (result m c) (flushed_eq m c) cover

/-- The run, read: the result array at attention of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Flash

end
-- ==== Proof.RefValue.lean ====
/-
  The reference program's result at the ideal values is textbook attention of its three arguments: the generated
  read-at-an-index lemmas followed operation by operation — the scores as the batched product over the 64 features
  divided by 8, the row maximum (a fold of max from minus infinity, taken once more against minus infinity), the exponentials,
  their row sum from zero, the quotient, and the batched product with the values over the 4096 keys.
-/
import proofs.«159403_j34815004902076_2_alg».proof.Proof.Gen.ReferenceIdeal.Read
import proofs.«159403_j34815004902076_2_alg».proof.Proof.LibSoftmaxRows
import proofs.«159403_j34815004902076_2_alg».proof.Proof.AttentionSpec
import Idealize.ShloMosaic.Lib.ValueIdx

noncomputable section

open scoped BigOperators

namespace Cert.ReferenceIdeal.Textbook

open Cert.ReferenceIdeal Cert.ReferenceIdeal.Gen Cert.ReferenceIdeal.Read Idealize.ShloMosaic Idealize.ShloMosaic.ValueIdx
open Cert.Attention

/-- The reference's three literals at the ideal values: the divisor 8, minus infinity, zero. -/
abbrev eight : EReal := Ideal.ofBits .f32 0x41000000#32
abbrev ninf : EReal := Ideal.ofBits .f32 0xFF800000#32
abbrev zero : EReal := Ideal.ofBits .f32 0x00000000#32

variable (x0 x1 x2 : Arr)

/-- The scaled scores at (b, i, k). -/
theorem scores_at (b : Fin 16) (i k : Fin 4096) :
    val_main_v2 (F := Ideal) x0 x1 (ix3 b i k) = plainScores eight x0 x1 b i k := by
  rw [val_main_v2_apply, val_main_v0_apply, val_main_v1_apply, val_main_cst_apply]
  show Ideal.div _ _ = Ideal.div _ _
  refine congrArg (Ideal.div · _) (Finset.sum_congr rfl fun e _ => ?_)
  exact congrArg₂ (· * ·)
    (congrArg x0 (funext fun a => Fin.ext (by match a with | ⟨0, _⟩ => rfl | ⟨1, _⟩ => rfl | ⟨2, _⟩ => rfl)))
    (congrArg x1 (funext fun a => Fin.ext (by match a with | ⟨0, _⟩ => rfl | ⟨1, _⟩ => rfl | ⟨2, _⟩ => rfl)))

/-- The row maximum at (b, i). -/
theorem rowmax_at (b : Fin 16) (i : Fin 4096) :
    val_main_v5 (F := Ideal) x0 x1 (ix2 b i)
      = max ninf ((Finset.univ : Finset (Fin 4096)).fold max ninf (plainScores eight x0 x1 b i)) := by
  rw [val_main_v5_apply, val_main_v4_apply, val_main_cst_1_apply]
  show max ninf (val_main_v3 (F := Ideal) x0 x1 (ix2 b i)) = _
  unfold val_main_v3
  rw [SoftmaxRows.hostLaneMax3_apply (n0 := 16) (n1 := 4096) (n2 := 4096) _ _ _ (by decide) _ b i]
  refine congrArg (max ninf) ?_
  show (Finset.univ : Finset (Fin 4096)).fold max ninf _ = _
  exact Finset.fold_congr fun k _ => scores_at x0 x1 b i k

/-- The exponentials at (b, i, k). -/
theorem exps_at (b : Fin 16) (i k : Fin 4096) :
    val_main_v9 (F := Ideal) x0 x1 (ix3 b i k)
      = Ideal.exp (plainScores eight x0 x1 b i k
          - max ninf ((Finset.univ : Finset (Fin 4096)).fold max ninf (plainScores eight x0 x1 b i))) := by
  rw [val_main_v9_apply, val_main_v8_apply, val_main_v7_apply, val_main_v6_apply, scores_at]
  show Ideal.exp (_ - val_main_v5 (F := Ideal) x0 x1 _) = _
  rw [show idx_main_v6 (idx_main_v7 (ix3 b i k)) = ix2 b i from
    funext fun a => Fin.ext (by match a with | ⟨0, _⟩ => rfl | ⟨1, _⟩ => rfl), rowmax_at]

/-- The row sums, broadcast back, at (b, i, k). -/
theorem sums_at (b : Fin 16) (i k : Fin 4096) :
    val_main_v12 (F := Ideal) x0 x1 (ix3 b i k)
      = zero + ∑ k' : Fin 4096, Ideal.exp (plainScores eight x0 x1 b i k'
          - max ninf ((Finset.univ : Finset (Fin 4096)).fold max ninf (plainScores eight x0 x1 b i))) := by
  rw [val_main_v12_apply, val_main_v11_apply, val_main_v10_apply, val_main_cst_2_apply]
  refine congrArg (zero + ·) (Finset.sum_congr rfl fun k' _ => ?_)
  rw [show idx_main_v10 (idx_main_v11 (idx_main_v12 (ix3 b i k))) k' = ix3 b i k' from
    funext fun a => Fin.ext (by match a with | ⟨0, _⟩ => rfl | ⟨1, _⟩ => rfl | ⟨2, _⟩ => rfl), exps_at]

/-- The reference's result is textbook attention of its arguments. -/
theorem result_eq : val_main_v14 (F := Ideal) x0 x1 x2 = textbook eight ninf zero x0 x1 x2 := by
  funext j
  obtain ⟨b, i, d, rfl⟩ : ∃ (b : Fin 16) (i : Fin 4096) (d : Fin 64), j = ix3 b i d := ⟨j 0, j 1, j 2, eq_ix3 j⟩
  rw [val_main_v14_apply]
  unfold textbook
  refine Finset.sum_congr rfl fun k _ => ?_
  rw [show lidx_main_v14 (ix3 b i d) k = ix3 b i k from
      funext fun a => Fin.ext (by match a with | ⟨0, _⟩ => rfl | ⟨1, _⟩ => rfl | ⟨2, _⟩ => rfl),
    show ridx_main_v14 (ix3 b i d) k = ix3 b k d from
      funext fun a => Fin.ext (by match a with | ⟨0, _⟩ => rfl | ⟨1, _⟩ => rfl | ⟨2, _⟩ => rfl),
    val_main_v13_apply, exps_at, sums_at]
  rfl

end Cert.ReferenceIdeal.Textbook

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.Finite.lean ====
/-
  The precondition makes every entry of the three argument arrays a real number: its bit is the conjunction of three
  tests, one per argument, each "every entry's absolute value is below plus infinity".
-/
import proofs.«159403_j34815004902076_2_alg».proof.Pre_finite_inputs
import proofs.«159403_j34815004902076_2_alg».proof.Proof.Gen.Pre_finite_inputs
import proofs.«159403_j34815004902076_2_alg».proof.Proof.LibFiniteEntries
import Idealize.ShloMosaic.Lib.Affine

noncomputable section

namespace Cert.FiniteInputs

open Idealize.ShloMosaic Idealize.ShloMosaic.ValueIdx Cert.Pre_finite_inputs

/-- Where the precondition's bit is one, the three arrays hold real numbers. -/
theorem real_entries (a0 a1 a2 : FVec Ideal S16x4096x64 .f32)
    (h : Cert.Pre_finite_inputs.fn (F := Ideal) a0 a1 a2 = fun _ => 1#1) :
    (∀ i, ∃ r : ℝ, a0 i = r) ∧ (∀ i, ∃ r : ℝ, a1 i = r) ∧ (∀ i, ∃ r : ℝ, a2 i = r) := by
  have h' := congrFun h ix0
  dsimp only [Cert.Pre_finite_inputs.fn] at h'
  obtain ⟨h01, h2⟩ := IntOp.andi_eq_one.1 h'
  obtain ⟨h0, h1⟩ := IntOp.andi_eq_one.1 h01
  exact ⟨fun i => Cert.LibFiniteEntries.real_entries_of_all_lt_inf a0 _ _ _ _ h0 i,
    fun i => Cert.LibFiniteEntries.real_entries_of_all_lt_inf a1 _ _ _ _ h1 i,
    fun i => Cert.LibFiniteEntries.real_entries_of_all_lt_inf a2 _ _ _ _ h2 i⟩

end Cert.FiniteInputs

end
-- ==== Proof.Consts.lean ====
/-
  The four float literals the two programs spell, as the extended reals their bit patterns denote: the kernel's score
  scale 2⁻³, the reference's divisor 8, minus infinity, and zero.
-/
import proofs.«159403_j34815004902076_2_alg».proof.Proof.LibFiniteEntries
import Idealize.ShloMosaic.PureOps.Ideal

noncomputable section

namespace Cert.Consts

open Idealize.ShloMosaic

/-- 0x3E000000 is 2⁻³. -/
theorem ofBits_eighth : Ideal.ofBits .f32 0x3E000000#32 = (((1 / 8 : ℝ) : ℝ) : EReal) := by
  simp [Ideal.ofBits, Ideal.ieee, -EReal.coe_mul]; norm_num

/-- 0x41000000 is 8. -/
theorem ofBits_eight : Ideal.ofBits .f32 0x41000000#32 = ((8 : ℝ) : EReal) := by
  simp [Ideal.ofBits, Ideal.ieee, -EReal.coe_mul]; norm_num

/-- 0xFF800000 is minus infinity. -/
theorem ofBits_ninf : Ideal.ofBits .f32 0xFF800000#32 = ⊥ := by
  simp [Ideal.ofBits, Ideal.ieee]

/-- The zero pattern is zero. -/
theorem ofBits_zero : Ideal.ofBits .f32 0x00000000#32 = 0 := by
  simp [Ideal.ofBits, Ideal.ieee]

end Cert.Consts

end
-- ==== Proof.Bridge.lean ====
/-
  The two programs' literals put in: with the score scale 2⁻³, the divisor 8, minus infinity and zero spelt as the
  programs spell them, attention the online way and attention the textbook way agree on arrays of real numbers.
-/
import proofs.«159403_j34815004902076_2_alg».proof.Proof.AttentionSpec
import proofs.«159403_j34815004902076_2_alg».proof.Proof.Consts

noncomputable section

namespace Cert.Attention

open Idealize.ShloMosaic

/-- On arrays of real numbers, the kernel's function of them is the reference's. -/
theorem flash_eq_textbook_patterns (Q K V : Arr) (hQ : ∀ i, ∃ r : ℝ, Q i = r) (hK : ∀ i, ∃ r : ℝ, K i = r)
    (hV : ∀ i, ∃ r : ℝ, V i = r) :
    flash (Ideal.ofBits .f32 0x3E000000#32) (Ideal.ofBits .f32 0xFF800000#32) (Ideal.ofBits .f32 0x00000000#32) Q K V
      = textbook (Ideal.ofBits .f32 0x41000000#32) (Ideal.ofBits .f32 0xFF800000#32) (Ideal.ofBits .f32 0x00000000#32) Q K V := by
  rw [Cert.Consts.ofBits_eighth, Cert.Consts.ofBits_eight, Cert.Consts.ofBits_ninf, Cert.Consts.ofBits_zero]
  exact funext (flash_eq_textbook Q K V hQ hK hV)

end Cert.Attention

end
-- ==== Proof.lean ====
/-
  Flash attention against softmax attention: the proof of the claim.

  The kernel walks, for each batch and each block of 1024 query rows, the 4096 keys in four tiles of 1024, carrying per row
  a running maximum, a running normalizer and a running weighted sum of value rows (the online softmax), and writes at the
  last tile the weighted sum divided by the normalizer. The reference computes all 4096 scores of a row, subtracts the
  row's maximum, exponentiates, normalizes by the row's sum and multiplies by the values. At the ideal values both are
  functions on the extended reals of the three argument arrays:

    * the kernel's result array is the online recursion after four tiles, index by index (no hypothesis on the inputs:
      by induction on the grid point over what each point leaves in the carried buffers, then the cover of the result
      array by the written-back blocks);
    * the reference's result is the textbook formula, index by index (the generated read-at-an-index lemmas);
    * for real inputs — which is what the precondition says — both are the softmax-weighted mean
      ∑ exp s · v / ∑ exp s of the row's values, because exp (s − m) = exp s / exp m cancels between numerator and
      denominator whatever real m is, and the scale 2⁻³ is the quotient by 8.

  The frames of the two kernel programs are the generated ones; the reference's frame is its generated run with the result
  dropped; the idealization rewrote nothing.
-/
import proofs.«159403_j34815004902076_2_alg».proof.Defs
import proofs.«159403_j34815004902076_2_alg».proof.Proof.Gen.Kernel
import proofs.«159403_j34815004902076_2_alg».proof.Proof.Gen.Kernel.Frame
import proofs.«159403_j34815004902076_2_alg».proof.Proof.Gen.KernelIdeal
import proofs.«159403_j34815004902076_2_alg».proof.Proof.Gen.KernelIdeal.Frame
import proofs.«159403_j34815004902076_2_alg».proof.Proof.Gen.KernelIdeal.Value
import proofs.«159403_j34815004902076_2_alg».proof.Proof.Gen.ReferenceIdeal
import proofs.«159403_j34815004902076_2_alg».proof.Proof.Gen.ReferenceIdeal.Run
import proofs.«159403_j34815004902076_2_alg».proof.Proof.Gen.ReferenceIdeal.Read
import proofs.«159403_j34815004902076_2_alg».proof.Proof.Gen.Pre_finite_inputs
import proofs.«159403_j34815004902076_2_alg».proof.Proof.KernelRun
import proofs.«159403_j34815004902076_2_alg».proof.Proof.RefValue
import proofs.«159403_j34815004902076_2_alg».proof.Proof.Finite
import proofs.«159403_j34815004902076_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments, of real entries by the precondition: the kernel's result array ends at
    the online recursion of them, the reference's at the textbook formula of them, and the two are one function there. -/
theorem algebraic : Cert.algebraic_KernelIdeal_ReferenceIdeal := by
  intro m ρ m' ρ' hpre hagree
  refine ⟨fun c => Cert.KernelIdeal.Flash.result m c, Cert.KernelIdeal.Flash.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK, hV⟩ := Cert.FiniteInputs.real_entries _ _ _ (hpre c)
  rw [Cert.ReferenceIdeal.Read.val_main_v14_eq, Cert.ReferenceIdeal.Textbook.result_eq, (hagree c).1, (hagree c).2.1,
    (hagree c).2.2]
  exact (Cert.Attention.flash_eq_textbook_patterns _ _ _ hQ hK hV).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
